-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S560x10000 : Shape := ⟨2, ![560, 10000]⟩
abbrev S560x128 : Shape := ⟨2, ![560, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S560x10000, .f32⟩
  | .local _ .vmem, ⟨1, _⟩ => ⟨S560x10000, .f32⟩
  | .local _ .vmem, ⟨2, _⟩ => ⟨S10000x128, .f32⟩
  | .local _ .vmem, ⟨3, _⟩ => ⟨S128x128, .f32⟩
  | .local _ .vmem, ⟨4, _⟩ => ⟨S560x128, .f32⟩
  | .local _ .vmem, ⟨5, _⟩ => ⟨S560x128, .f32⟩
  | .local _ .vmem, ⟨6, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S560x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S560x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S560x10000_S560x10000_0_0 : ∀ a, (![0, 0] : Fin 2 → Nat) a + S560x10000.size a ≤ S560x10000.size a
  h_S560x10000 : 0 < S560x10000.numel
  inb_S560x128_S560x128_0_0 : ∀ a, (![0, 0] : Fin 2 → Nat) a + S560x128.size a ≤ S560x128.size a
  h_S560x128 : 0 < S560x128.numel
  dot_S10000x128_S128x128_S10000x128_1_0_0_1_n_n_wf : DotDims.WF S10000x128 S128x128 S10000x128 [1] [0] [0] [1] [] []
  dot_S560x10000_S10000x128_S560x128_1_0_0_1_n_n_wf : DotDims.WF S560x10000 S10000x128 S560x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S560x10000.size a < S10000x10000.size a
  hwx0_0 : ∀ i : grid0.Coords, EltTy.bits .f32 = 32 ∨ (Rect.unit (s := S10000x10000) (fun a => cc0_transform_0 i a * S560x10000.size a) (fun a => (Pipeline.Clip.of (cc0_transform_0 i a) (S560x10000.size a) (S10000x10000.size a)).extent (S560x10000.size a)) fun a => Pipeline.Clip.inb (Pipeline.Clip.ok_of (hstart0_0 i a))).WholeWords (EltTy.packing .f32)
  hwxs0_0 : ∀ i : grid0.Coords, EltTy.bits .f32 = 32 ∨ (Rect.unit (s := S560x10000) (fun _ => 0) (fun a => (Pipeline.Clip.of (cc0_transform_0 i a) (S560x10000.size a) (S10000x10000.size a)).extent (S560x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S560x128.size a < S10000x128.size a
  hwx0_3 : ∀ i : grid0.Coords, EltTy.bits .f32 = 32 ∨ (Rect.unit (s := S10000x128) (fun a => cc0_transform_3 i a * S560x128.size a) (fun a => (Pipeline.Clip.of (cc0_transform_3 i a) (S560x128.size a) (S10000x128.size a)).extent (S560x128.size a)) fun a => Pipeline.Clip.inb (Pipeline.Clip.ok_of (hstart0_3 i a))).WholeWords (EltTy.packing .f32)
  hwxs0_3 : ∀ i : grid0.Coords, EltTy.bits .f32 = 32 ∨ (Rect.unit (s := S560x128) (fun _ => 0) (fun a => (Pipeline.Clip.of (cc0_transform_3 i a) (S560x128.size a) (S10000x128.size a)).extent (S560x128.size a)) fun a => (Nat.zero_add _).trans_le (Pipeline.Clip.extent_le (Pipeline.Clip.ok_of (hstart0_3 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S560x10000_S10000x128_S560x128_1_0_0_1_n_n : DotDims S560x10000 S10000x128 S560x128 where
  lhsContracting := [1]
  rhsContracting := [0]
  lhsNonContracting := [0]
  rhsNonContracting := [1]
  lhsBatch := []
  rhsBatch := []
  wf := dot_S560x10000_S10000x128_S560x128_1_0_0_1_n_n_wf

abbrev win0_0 : Pipeline.Window sig grid0 :=
  Pipeline.Window.ofSpecClip (Memref.whole main_arg1) S560x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v0) S560x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibWholeStore.lean ====
/-
  A store over a whole block, made last, is what the block then reads.

  A list of stores through rectangles of a view is read back index by index: each index reads the payload of
  the last store whose rectangle holds it. When the last store's rectangle is the whole shape at zero offsets,
  every index is under it, so the contents read back are that store's payload, whatever was stored before and
  whatever the buffer held. Stated over an abstract shape, so that applying it at a large literal shape never
  asks for the shape's index set.
-/
import Idealize.ShloMosaic.Lib.Pipeline.Value

noncomputable section

namespace Cert.WholeStore

open Idealize.ShloMosaic

variable {sig : RefSig} {κ : Kind} {sp : Space} {S : Shape} {e : EltTy} {Val : EltTy → Type}

/-- The whole-shape rectangle at zero offsets covers every index, so a list of stores headed by one through it
    covers the shape. -/
theorem cover_cons [∀ e, Nonempty (Val e)] {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨⟨Rect.unit off S.size inb, w⟩, List.mem_cons_self .., View.mem_set_unit_zero h inb y⟩

/-- A buffer read after a list of stores whose last is a store of `w` over the whole shape reads `w`. -/
theorem read_writes_cons [∀ e, Nonempty (Val e)] (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (cover_cons h inb w L)]
  exact View.canon_cons_unit_zero h inb w L

end Cert.WholeStore

end
-- ==== Proof.BitsRuns.lean ====
import proofs.«103150_g2800318677549_cont_9to1_1348_13_alg».proof.Proof.Gen.Kernel.Frame
import proofs.«103150_g2800318677549_cont_9to1_1348_13_alg».proof.Proof.Gen.Kernel.Skeleton
import proofs.«103150_g2800318677549_cont_9to1_1348_13_alg».proof.Proof.LibWholeStore

set_option maxRecDepth 16384

noncomputable section

/-
  The kernel body, case by case.

  One grid point handles a block of 560 rows of the square matrix. The body branches on whether the point is the first:
  there it also forms the product of the two small resident matrices and keeps it in a scratch buffer that lives across
  points. Both cases are stated over arbitrary whole staging memrefs with the contents each buffer ends with written
  out: loads through the whole-shape rectangle read the contents, and one store through it leaves its payload.
-/
namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's two cases

The body tests whether the grid coordinate is zero. At the first point it multiplies the two resident blocks and keeps the
product in the scratch; at every point it multiplies the row block by what the scratch holds and stores the product into
the output block. Each case is run once, over any whole staging memrefs. -/

/-- The body's branch condition, from the grid coordinate. -/
abbrev cond0 (i : grid0.Coords) : Prop :=
  (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

theorem hz2 : (![0, 0] : Fin 2 → Nat) = fun _ => 0 := funext fun a => by fin_cases a <;> rfl

set_option maxHeartbeats 1000000 in
/-- After the first point: the row block times the scratch, stored whole into the output block; the row block and
    the scratch are left as found. -/
theorem runB (c : Dev nD) (i : grid0.Coords)
    (arg1 : Memref sig .tc .vmem S560x10000 .f32) (harg1 : arg1.IsWhole)
    (arg2 : Memref sig .tc .vmem S10000x128 .f32) (harg2 : arg2.IsWhole)
    (arg3 : Memref sig .tc .vmem S128x128 .f32) (harg3 : arg3.IsWhole)
    (arg4 : Memref sig .tc .vmem S560x128 .f32) (harg4 : arg4.IsWhole)
    (arg5 : Memref sig .tc .vmem S10000x128 .f32) (harg5 : arg5.IsWhole)
    (hc : ¬cond0 i)
    (x1 : Vec F S560x10000 .f32) (x5 : Vec F S10000x128 .f32) (E : Set ℕ) (K : PUnit → sProp 𝕄) :
    iprop(owns (c : Thread nD τ) arg1 fullShare x1 ∗ (∃ d, owns (c : Thread nD τ) arg4 fullShare d) ∗ owns (c : Thread nD τ) arg5 fullShare x5
        ∗ (iprop(owns (c : Thread nD τ) arg1 fullShare x1 ∗ owns (c : Thread nD τ) arg4 fullShare (k0_pay2 x1 x5) ∗ owns (c : Thread nD τ) arg5 fullShare x5) -∗ K ⟨⟩))
      ⊢ wp frame (wpE (defs₀ (F := F)) Variants.none c none) E (cc0__gcn_body i arg1 harg1 arg2 harg2 arg3 harg3 arg4 harg4 arg5 harg5) K := by
  simp only [cc0__gcn_body_eq_skeleton]; unfold cc0__gcn_body_skel
  unfold owns
  iintro ⟨⟨%f1, %hf1, H1⟩, ⟨%d4, %f4, -, H4⟩, ⟨%f5, %hf5, H5⟩, Hk⟩
  obtain rfl := harg1.eq_unread hf1; obtain rfl := harg5.eq_unread hf5
  sl_exec (disch := first | exact hc)
  sl_step
  iapply Hk
  isplitl [H1]
  · iexists _; isplitr; · ipureintro; exact harg1.read_unread _
    iexact H1
  isplitl [H4]
  · iexists _; isplitr
    swap; · iexact H4
    ipureintro
    rw [Cert.WholeStore.read_writes_cons _ _ hz2]
    simp only [View.readAt_eq_ld, harg1.read_unread, harg5.read_unread, View.ld_unit_zero (S := S560x10000) hz2,
      View.ld_unit_zero (S := S10000x128) hz2]
  · iexists _; isplitr; · ipureintro; exact harg5.read_unread _
    iexact H5

set_option maxHeartbeats 1000000 in
/-- At the first point: the product of the two resident blocks is stored whole into the scratch, read back, and the
    row block times it is stored whole into the output block; the three input blocks are left as found. -/
theorem runA (c : Dev nD) (i : grid0.Coords)
    (arg1 : Memref sig .tc .vmem S560x10000 .f32) (harg1 : arg1.IsWhole)
    (arg2 : Memref sig .tc .vmem S10000x128 .f32) (harg2 : arg2.IsWhole)
    (arg3 : Memref sig .tc .vmem S128x128 .f32) (harg3 : arg3.IsWhole)
    (arg4 : Memref sig .tc .vmem S560x128 .f32) (harg4 : arg4.IsWhole)
    (arg5 : Memref sig .tc .vmem S10000x128 .f32) (harg5 : arg5.IsWhole)
    (hc : cond0 i)
    (x1 : Vec F S560x10000 .f32) (x2 : Vec F S10000x128 .f32) (x3 : Vec F S128x128 .f32) (E : Set ℕ) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (k0_pay2 x1 (k0_pay1 x2 x3)) ∗ owns (c : Thread nD τ) arg5 fullShare (k0_pay1 x2 x3)) -∗ K ⟨⟩))
      ⊢ wp frame (wpE (defs₀ (F := F)) Variants.none c none) E (cc0__gcn_body i arg1 harg1 arg2 harg2 arg3 harg3 arg4 harg4 arg5 harg5) K := by
  simp only [cc0__gcn_body_eq_skeleton]; unfold cc0__gcn_body_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [Cert.WholeStore.read_writes_cons _ _ hz2, View.readCov_unit_zero (S := S10000x128) arg5.view hz2]
    simp only [View.readAt_eq_ld, harg1.read_unread, harg2.read_unread, harg3.read_unread,
      View.ld_unit_zero (S := S560x10000) hz2, View.ld_unit_zero (S := S10000x128) hz2,
      View.ld_unit_zero (S := S128x128) hz2]
  · iexists _; isplitr
    swap; · iexact H5
    ipureintro
    sl_unfold_words
    rw [Cert.WholeStore.read_writes_cons _ _ hz2]
    simp only [View.readAt_eq_ld, harg2.read_unread, harg3.read_unread,
      View.ld_unit_zero (S := S10000x128) hz2, View.ld_unit_zero (S := S128x128) hz2]

end Cert.Kernel.Body

end
-- ==== Proof.BitsData.lean ====
/-
  The proof data of the one pipeline and the body at a grid point.

  The grid has eighteen points, each a block of 560 rows of a 10000-row matrix: the last block overhangs the array by
  eighty rows, on the input side and on the output side, and what the staging buffers hold on those rows is named by
  nothing. The scratch holds the product of the two resident matrices from the first point on; the invariant says so.
-/
import proofs.«103150_g2800318677549_cont_9to1_1348_13_alg».proof.Proof.BitsRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point, and the scratch -/

abbrev ms0 (t : Fin cfg0.N) : Memref sig .tc .vmem S560x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S560x128 .f32 := win0_3.stage (cfg0.slots t 3)
abbrev hs3 (t : Fin cfg0.N) : (ms3 t).IsWhole := hstage0_3 ((cfg0.slots t 3).cast nbuf0_3)
/-- The scratch that outlives a point. -/
abbrev scM : Memref sig .tc .vmem S10000x128 .f32 := Memref.whole cc0_scratch0

/-- Before the first point the scratch holds anything. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

theorem N_pos : 0 < cfg0.N := by decide

/-- The first grid point. -/
abbrev t₀ : Fin cfg0.N := ⟨0, N_pos⟩

/-- What the scratch holds from the first point on: the product of the two resident blocks as the first point finds
    them. -/
def supp (c : Dev nD) : Vec F S10000x128 .f32 := k0_pay1 (iblk m c 1 t₀) (iblk m c 2 t₀)

/-- The invariant before position `n`: before the first point the scratch at anything, afterwards at the product. -/
def PhiS (c : Dev nD) : ℕ → sProp 𝕄
  | 0 => Pipeline.ΦA spec0 c
  | _ + 1 => iprop(iprop(owns (c : Thread nD τ) scM fullShare (supp m c)) ∗ (∃ r, prngReg c r))

/-! ## The proof data

The three input windows are handed back as found. The row block's last block overhangs the array by eighty rows, so
only its part inside the array is named; the same holds of the output block, whose contents after the body are the
parameter `out3`. -/

def dats (out3 : Dev nD → Fin cfg0.N → S560x128.Idx → Elt F .f32) (_ : Fin 1) (c : Dev nD) :
    Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => out3 c t
  Φ t := PhiS m c t.val
  q _ := fullShare
  owed _ := 0

variable (out3 : Dev nD → Fin cfg0.N → S560x128.Idx → Elt F .f32)

theorem A_eq (c : Dev nD) (w : Fin cfg0.W) : (dats m out3 0 c).A w = V m c (Pipeline.arrRef spec0 w) := by
  dsimp only [dats]

/-- The output window is never fetched. -/
theorem fetch0_3 : ∀ t : Fin cfg0.N, (cfg0.win 3).fetch t = false :=
  (by decide +kernel : ∀ t : Fin grid0.N, win0_3.fetch t = false)

/-- The row block is fetched at every point: its part inside the array lands, the rest is whatever it was. -/
theorem before_0 (c : Dev nD) (t : Fin cfg0.N) (d) :
    (dats m out3 0 c).before 0 t d = win0_0.fill (grid0.coords t) d (iblk m c 0 t) := by
  unfold Dat.before; rw [if_pos (fetch0_0 t)]; rfl

/-- The two resident blocks hold their arrays at every point. -/
theorem before_1 (c : Dev nD) (t : Fin cfg0.N) (d) : (dats m out3 0 c).before 1 t d = iblk m c 1 t :=
  before0_1_of m (dats m out3 0 c) rfl (fun _ => rfl) t d
theorem before_2 (c : Dev nD) (t : Fin cfg0.N) (d) : (dats m out3 0 c).before 2 t d = iblk m c 2 t :=
  before0_2_of m (dats m out3 0 c) rfl (fun _ => rfl) t d

/-- The output block is written back at every point, so the body finds it at anything. -/
theorem before_3 (c : Dev nD) (t : Fin cfg0.N) (d) : (dats m out3 0 c).before 3 t d = d := by
  unfold Dat.before
  rw [if_neg (by rw [fetch0_3 t]; exact Bool.false_ne_true)]
  by_cases h : t.val = 0
  · rw [if_pos h]
  · rw [if_neg h]; exact if_pos (flush0_3 _)

theorem Phi_castSucc (c : Dev nD) (t : Fin cfg0.N) : (dats m out3 0 c).Φ t.castSucc = PhiS m c t.val := by
  dsimp only [dats]; simp only [Fin.coe_castSucc]

/-! ## The body at a point -/

set_option maxHeartbeats 4000000 in
/-- The body at point `t`, handed the row block filled out with `d0` past the array's end, the two resident blocks,
    the output block at anything and the invariant: it hands the three inputs back, the output block at the row block
    times the scratch's product, and the invariant of the next position. -/
theorem sound_body (c : Dev nD) (t : Fin cfg0.N) (d0 : S560x10000.Idx → Elt F .f32) (K : PUnit → sProp 𝕄) :
    iprop((dats m out3 0 c).Φ t.castSucc
        ∗ owns (c : Thread nD τ) (ms0 t) fullShare (win0_0.fill (grid0.coords t) d0 (iblk m c 0 t))
        ∗ owns (c : Thread nD τ) (ms1 t) fullShare (iblk m c 1 t)
        ∗ owns (c : Thread nD τ) (ms2 t) fullShare (iblk m c 2 t)
        ∗ (∃ d, owns (c : Thread nD τ) (ms3 t) fullShare d)
        ∗ (iprop((dats m out3 0 c).Φ t.succ
            ∗ owns (c : Thread nD τ) (ms0 t) fullShare (win0_0.fill (grid0.coords t) d0 (iblk m c 0 t))
            ∗ owns (c : Thread nD τ) (ms1 t) fullShare (iblk m c 1 t)
            ∗ owns (c : Thread nD τ) (ms2 t) fullShare (iblk m c 2 t)
            ∗ owns (c : Thread nD τ) (ms3 t) fullShare
                (k0_pay2 (win0_0.fill (grid0.coords t) d0 (iblk m c 0 t)) (supp m c))) -∗ K ⟨⟩))
      ⊢ wp frame (wpE (defs₀ (F := F)) Variants.none c none) Set.univ (bodyAt0 t) K := by
  rw [Phi_castSucc, show (dats m out3 0 c).Φ t.succ = PhiS m c (t.val + 1) from rfl]
  unfold bodyAt0
  by_cases hz : t.val = 0
  · obtain ⟨n, hn⟩ := t
    obtain rfl : n = 0 := hz
    rw [show PhiS m c (⟨0, hn⟩ : Fin cfg0.N).val = Pipeline.ΦA spec0 c from rfl, PhiA_eq,
      show PhiS m c ((⟨0, hn⟩ : Fin cfg0.N).val + 1)
        = iprop(iprop(owns (c : Thread nD τ) scM fullShare (k0_pay1 (iblk m c 1 ⟨0, hn⟩) (iblk m c 2 ⟨0, hn⟩))) ∗ (∃ r, prngReg c r)) from rfl,
      show supp m c = k0_pay1 (iblk m c 1 ⟨0, hn⟩) (iblk m c 2 ⟨0, hn⟩) from rfl]
    iintro ⟨⟨HS, Hg⟩, H0, H1, H2, H3, Hk⟩
    iapply (runA c (grid0.coords ⟨0, hn⟩) _ _ _ _ _ _ _ _ _ _ ((hcond0 ⟨0, hn⟩).mpr rfl) _ _ _ Set.univ _)
    isplitl [H0]; · iexact H0
    isplitl [H1]; · iexact H1
    isplitl [H2]; · iexact H2
    isplitl [H3]; · iexact H3
    isplitl [HS]; · iexact HS
    iintro ⟨H0, H1, H2, H3, HS⟩
    iapply Hk
    isplitl [HS Hg]
    · isplitl [HS]; · iexact HS
      iexact Hg
    isplitl [H0]; · iexact H0
    isplitl [H1]; · iexact H1
    isplitl [H2]; · iexact H2
    iexact H3
  · obtain ⟨k, hk⟩ : ∃ k, t.val = k + 1 := Nat.exists_eq_succ_of_ne_zero hz
    rw [show PhiS m c t.val = iprop(iprop(owns (c : Thread nD τ) scM fullShare (supp m c)) ∗ (∃ r, prngReg c r)) from by rw [hk]; rfl,
      show PhiS m c (t.val + 1) = iprop(iprop(owns (c : Thread nD τ) scM fullShare (supp m c)) ∗ (∃ r, prngReg c r)) from rfl]
    iintro ⟨⟨HS, Hg⟩, H0, H1, H2, H3, Hk⟩
    iapply (runB c (grid0.coords t) _ _ _ _ _ _ _ _ _ _ (fun h => hz ((hcond0 t).mp h)) _ _ Set.univ _)
    isplitl [H0]; · iexact H0
    isplitl [H3]; · iexact H3
    isplitl [HS]; · iexact HS
    iintro ⟨H0, H3, HS⟩
    iapply Hk
    isplitl [HS Hg]
    · isplitl [HS]; · iexact HS
      iexact Hg
    isplitl [H0]; · iexact H0
    isplitl [H1]; · iexact H1
    isplitl [H2]; · iexact H2
    iexact H3

end Cert.Kernel.Body

end
-- ==== Proof.BitsFrame.lean ====
/-
  The frame of the program: it runs to the end, faults nowhere, and leaves its three argument arrays as it found them.

  Nothing here depends on what the matrix unit computes: the body's two cases are run on whatever the staging buffers
  hold, the output block is handed back at contents nothing names, and the scratch is carried from point to point at
  the contents the first point left in it.
-/
import proofs.«103150_g2800318677549_cont_9to1_1348_13_alg».proof.Proof.BitsData

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (out3 : Dev nD → Fin cfg0.N → S560x128.Idx → Elt F .f32)

/-! ## The body obligation, nothing said of the output block -/

/-- The output window: the frame says nothing of what the body leaves in it. -/
def forgets : Fin 4 → Bool := fun w => w.val == 3

/-- At every point the body takes the three input blocks as the fetches left them and hands them back so; the
    output block goes in and comes out at contents nothing names. -/
theorem body_obligation_fgt (c : Dev nD) :
    BodyObligationLoose (dats (F := F) m out3 0 c) (defs₀ (F := F)) Variants.none () Set.univ forgets := fun t => by
  rw [bigSep_W0, bigSep_W0]
  have e0 : ((0 : Fin 4).val == 3) = false := rfl
  have e1 : ((1 : Fin 4).val == 3) = false := rfl
  have e2 : ((2 : Fin 4).val == 3) = false := rfl
  have e3 : ((3 : Fin 4).val == 3) = true := rfl
  simp only [forgets, e0, e1, e2, e3]
  rw [show (dats m out3 0 c).owesAt () t.succ = (dats m out3 0 c).owesAt () t.castSucc from rfl]
  iintro ⟨HΦ, Ho, ⟨%d0, H0⟩, ⟨%d1, H1⟩, ⟨%d2, H2⟩, H3⟩
  rw [before_0 m out3 c t d0, before_1 m out3 c t d1, before_2 m out3 c t d2]
  iapply (sound_body m out3 c t d0 _)
  isplitl [HΦ]; · iexact HΦ
  isplitl [H0]; · iexact H0
  isplitl [H1]; · iexact H1
  isplitl [H2]; · iexact H2
  isplitl [H3]; · iexact H3
  iintro ⟨HΦ, H0, H1, H2, H3⟩
  isplitl [HΦ]; · iexact HΦ
  isplitl [Ho]; · iexact Ho
  have hx : win0_0.cut (grid0.coords t) ((dats m out3 0 c).after 0 t) = iblk m c 0 t := win0_0.cut_fill _ _ _
  isplitl [H0]
  · iexists d0
    change _ ⊢ owns (c : Thread nD τ) (ms0 t) fullShare (win0_0.fill (grid0.coords t) d0 (win0_0.cut (grid0.coords t) ((dats m out3 0 c).after 0 t)))
    rw [hx]; try iexact H0
  isplitl [H1]; · iexact H1
  isplitl [H2]; · iexact H2
  iexists _; iexact H3

/-! ## The invariant's two ends -/

/-- What the launch hands the region is the invariant before the first point. -/
theorem hin (c : Dev nD) : Pipeline.ΦA spec0 c ⊢ (dats m out3 0 c).Φ 0 := by
  rw [show (dats m out3 0 c).Φ 0 = Pipeline.ΦA spec0 c from rfl]

/-- After the last point the scratch's contents are forgotten. -/
theorem hout (c : Dev nD) : (dats m out3 0 c).Φ (Fin.last cfg0.N) ⊢ Pipeline.ΦA spec0 c := by
  rw [show (dats m out3 0 c).Φ (Fin.last cfg0.N)
      = iprop(iprop(owns (c : Thread nD τ) scM fullShare (supp m c)) ∗ (∃ r, prngReg c r)) from rfl, PhiA_eq]
  iintro ⟨HS, Hg⟩
  isplitl [HS]
  · iexists _; iexact HS
  iexact Hg

/-! ## The run and the frame -/

set_option backward.isDefEq.respectTransparency.types false in
/-- Every weakly fair execution of @main terminates without a fault; the three argument arrays hold at the end what the
    region found in them. -/
theorem run_frame : θ_run defs (onTc (τ := τ) (main (F := F))) (s₀ m ρ)
    (Pipeline.RDat.FramePost (cfgs 0) (fun c => (dats m out3 0 c).toRForget forgets) (V m)) :=
  Pipeline.RDat.θ_run_frame_track cfgs (0 : Fin 1) launch0 defs₀ Variants.none
    (fun c => (dats m out3 0 c).toRForget forgets) m ρ main
    (hbody := fun c => (body_obligation_fgt m out3 c).toRForget)
    (hshare := fun c => ((dats m out3 0 c).toRForget forgets).share_full fun _ => rfl)
    (howed := fun _ _ => rfl) (V := V m) (hmain := hmain m Variants.none) (hA := fun c w => A_eq m out3 c w)
    (hin := hin m out3) (hout := hout m out3)

/-- The frame: the program runs to the end and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m (fun _ _ _ => Scalar.ofBits .f32 0#32) 0 c).toRForget forgets).ArrAt_in 1 rfl _) _) ((h c).1 1)).trans (V_main_arg0 m c),
     (Eq.mp (congrFun (((dats m (fun _ _ _ => Scalar.ofBits .f32 0#32) 0 c).toRForget forgets).ArrAt_in 0 rfl _) _) ((h c).1 0)).trans (V_main_arg1 m c),
     (Eq.mp (congrFun (((dats m (fun _ _ _ => Scalar.ofBits .f32 0#32) 0 c).toRForget forgets).ArrAt_in 2 rfl _) _) ((h c).1 2)).trans (V_main_arg2 m c)⟩)
    (run_frame m ρ (fun _ _ _ => Scalar.ofBits .f32 0#32))

end Cert.Kernel.Body

end
-- ==== Proof.IdealRuns.lean ====
import proofs.«103150_g2800318677549_cont_9to1_1348_13_alg».proof.Proof.Gen.KernelIdeal.Frame
import proofs.«103150_g2800318677549_cont_9to1_1348_13_alg».proof.Proof.Gen.KernelIdeal.Skeleton
import proofs.«103150_g2800318677549_cont_9to1_1348_13_alg».proof.Proof.LibWholeStore

set_option maxRecDepth 16384

noncomputable section

/-
  The kernel body, case by case.

  One grid point handles a block of 560 rows of the square matrix. The body branches on whether the point is the first:
  there it also forms the product of the two small resident matrices and keeps it in a scratch buffer that lives across
  points. Both cases are stated over arbitrary whole staging memrefs with the contents each buffer ends with written
  out: loads through the whole-shape rectangle read the contents, and one store through it leaves its payload.
-/
namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's two cases

The body tests whether the grid coordinate is zero. At the first point it multiplies the two resident blocks and keeps the
product in the scratch; at every point it multiplies the row block by what the scratch holds and stores the product into
the output block. Each case is run once, over any whole staging memrefs. -/

/-- The body's branch condition, from the grid coordinate. -/
abbrev cond0 (i : grid0.Coords) : Prop :=
  (Scalar.cmpi .ne (Scalar.extui (Scalar.cmpi .eq (BitVec.ofNat 32 (i 0).val) 0#32)) 0#32) = 1#1

/-- It holds at the first point only. -/
theorem hcond0 : ∀ t : Fin cfg0.N, cond0 (grid0.coords t) ↔ t.val = 0 :=
  (by decide +kernel : ∀ t : Fin grid0.N, cond0 (grid0.coords t) ↔ t.val = 0)

theorem hz2 : (![0, 0] : Fin 2 → Nat) = fun _ => 0 := funext fun a => by fin_cases a <;> rfl

set_option maxHeartbeats 1000000 in
/-- After the first point: the row block times the scratch, stored whole into the output block; the row block and
    the scratch are left as found. -/
theorem runB (c : Dev nD) (i : grid0.Coords)
    (arg1 : Memref sig .tc .vmem S560x10000 .f32) (harg1 : arg1.IsWhole)
    (arg2 : Memref sig .tc .vmem S10000x128 .f32) (harg2 : arg2.IsWhole)
    (arg3 : Memref sig .tc .vmem S128x128 .f32) (harg3 : arg3.IsWhole)
    (arg4 : Memref sig .tc .vmem S560x128 .f32) (harg4 : arg4.IsWhole)
    (arg5 : Memref sig .tc .vmem S10000x128 .f32) (harg5 : arg5.IsWhole)
    (hc : ¬cond0 i)
    (x1 : Vec F S560x10000 .f32) (x5 : Vec F S10000x128 .f32) (E : Set ℕ) (K : PUnit → sProp 𝕄) :
    iprop(owns (c : Thread nD τ) arg1 fullShare x1 ∗ (∃ d, owns (c : Thread nD τ) arg4 fullShare d) ∗ owns (c : Thread nD τ) arg5 fullShare x5
        ∗ (iprop(owns (c : Thread nD τ) arg1 fullShare x1 ∗ owns (c : Thread nD τ) arg4 fullShare (k0_pay2 x1 x5) ∗ owns (c : Thread nD τ) arg5 fullShare x5) -∗ K ⟨⟩))
      ⊢ wp frame (wpE (defs₀ (F := F)) Variants.none c none) E (cc0__gcn_body i arg1 harg1 arg2 harg2 arg3 harg3 arg4 harg4 arg5 harg5) K := by
  simp only [cc0__gcn_body_eq_skeleton]; unfold cc0__gcn_body_skel
  unfold owns
  iintro ⟨⟨%f1, %hf1, H1⟩, ⟨%d4, %f4, -, H4⟩, ⟨%f5, %hf5, H5⟩, Hk⟩
  obtain rfl := harg1.eq_unread hf1; obtain rfl := harg5.eq_unread hf5
  sl_exec (disch := first | exact hc)
  sl_step
  iapply Hk
  isplitl [H1]
  · iexists _; isplitr; · ipureintro; exact harg1.read_unread _
    iexact H1
  isplitl [H4]
  · iexists _; isplitr
    swap; · iexact H4
    ipureintro
    rw [Cert.WholeStore.read_writes_cons _ _ hz2]
    simp only [View.readAt_eq_ld, harg1.read_unread, harg5.read_unread, View.ld_unit_zero (S := S560x10000) hz2,
      View.ld_unit_zero (S := S10000x128) hz2]
  · iexists _; isplitr; · ipureintro; exact harg5.read_unread _
    iexact H5

set_option maxHeartbeats 1000000 in
/-- At the first point: the product of the two resident blocks is stored whole into the scratch, read back, and the
    row block times it is stored whole into the output block; the three input blocks are left as found. -/
theorem runA (c : Dev nD) (i : grid0.Coords)
    (arg1 : Memref sig .tc .vmem S560x10000 .f32) (harg1 : arg1.IsWhole)
    (arg2 : Memref sig .tc .vmem S10000x128 .f32) (harg2 : arg2.IsWhole)
    (arg3 : Memref sig .tc .vmem S128x128 .f32) (harg3 : arg3.IsWhole)
    (arg4 : Memref sig .tc .vmem S560x128 .f32) (harg4 : arg4.IsWhole)
    (arg5 : Memref sig .tc .vmem S10000x128 .f32) (harg5 : arg5.IsWhole)
    (hc : cond0 i)
    (x1 : Vec F S560x10000 .f32) (x2 : Vec F S10000x128 .f32) (x3 : Vec F S128x128 .f32) (E : Set ℕ) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (iprop(owns (c : Thread nD τ) arg1 fullShare x1 ∗ owns (c : Thread nD τ) arg2 fullShare x2 ∗ owns (c : Thread nD τ) arg3 fullShare x3
            ∗ owns (c : Thread nD τ) arg4 fullShare (k0_pay2 x1 (k0_pay1 x2 x3)) ∗ owns (c : Thread nD τ) arg5 fullShare (k0_pay1 x2 x3)) -∗ K ⟨⟩))
      ⊢ wp frame (wpE (defs₀ (F := F)) Variants.none c none) E (cc0__gcn_body i arg1 harg1 arg2 harg2 arg3 harg3 arg4 harg4 arg5 harg5) K := by
  simp only [cc0__gcn_body_eq_skeleton]; unfold cc0__gcn_body_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [Cert.WholeStore.read_writes_cons _ _ hz2, View.readCov_unit_zero (S := S10000x128) arg5.view hz2]
    simp only [View.readAt_eq_ld, harg1.read_unread, harg2.read_unread, harg3.read_unread,
      View.ld_unit_zero (S := S560x10000) hz2, View.ld_unit_zero (S := S10000x128) hz2,
      View.ld_unit_zero (S := S128x128) hz2]
  · iexists _; isplitr
    swap; · iexact H5
    ipureintro
    sl_unfold_words
    rw [Cert.WholeStore.read_writes_cons _ _ hz2]
    simp only [View.readAt_eq_ld, harg2.read_unread, harg3.read_unread,
      View.ld_unit_zero (S := S10000x128) hz2, View.ld_unit_zero (S := S128x128) hz2]

end Cert.KernelIdeal.Body

end
-- ==== Proof.IdealData.lean ====
/-
  The proof data of the one pipeline and the body at a grid point.

  The grid has eighteen points, each a block of 560 rows of a 10000-row matrix: the last block overhangs the array by
  eighty rows, on the input side and on the output side, and what the staging buffers hold on those rows is named by
  nothing. The scratch holds the product of the two resident matrices from the first point on; the invariant says so.
-/
import proofs.«103150_g2800318677549_cont_9to1_1348_13_alg».proof.Proof.IdealRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point, and the scratch -/

abbrev ms0 (t : Fin cfg0.N) : Memref sig .tc .vmem S560x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S560x128 .f32 := win0_3.stage (cfg0.slots t 3)
abbrev hs3 (t : Fin cfg0.N) : (ms3 t).IsWhole := hstage0_3 ((cfg0.slots t 3).cast nbuf0_3)
/-- The scratch that outlives a point. -/
abbrev scM : Memref sig .tc .vmem S10000x128 .f32 := Memref.whole cc0_scratch0

/-- Before the first point the scratch holds anything. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

theorem N_pos : 0 < cfg0.N := by decide

/-- The first grid point. -/
abbrev t₀ : Fin cfg0.N := ⟨0, N_pos⟩

/-- What the scratch holds from the first point on: the product of the two resident blocks as the first point finds
    them. -/
def supp (c : Dev nD) : Vec F S10000x128 .f32 := k0_pay1 (iblk m c 1 t₀) (iblk m c 2 t₀)

/-- The invariant before position `n`: before the first point the scratch at anything, afterwards at the product. -/
def PhiS (c : Dev nD) : ℕ → sProp 𝕄
  | 0 => Pipeline.ΦA spec0 c
  | _ + 1 => iprop(iprop(owns (c : Thread nD τ) scM fullShare (supp m c)) ∗ (∃ r, prngReg c r))

/-! ## The proof data

The three input windows are handed back as found. The row block's last block overhangs the array by eighty rows, so
only its part inside the array is named; the same holds of the output block, whose contents after the body are the
parameter `out3`. -/

def dats (out3 : Dev nD → Fin cfg0.N → S560x128.Idx → Elt F .f32) (_ : Fin 1) (c : Dev nD) :
    Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => out3 c t
  Φ t := PhiS m c t.val
  q _ := fullShare
  owed _ := 0

variable (out3 : Dev nD → Fin cfg0.N → S560x128.Idx → Elt F .f32)

theorem A_eq (c : Dev nD) (w : Fin cfg0.W) : (dats m out3 0 c).A w = V m c (Pipeline.arrRef spec0 w) := by
  dsimp only [dats]

/-- The output window is never fetched. -/
theorem fetch0_3 : ∀ t : Fin cfg0.N, (cfg0.win 3).fetch t = false :=
  (by decide +kernel : ∀ t : Fin grid0.N, win0_3.fetch t = false)

/-- The row block is fetched at every point: its part inside the array lands, the rest is whatever it was. -/
theorem before_0 (c : Dev nD) (t : Fin cfg0.N) (d) :
    (dats m out3 0 c).before 0 t d = win0_0.fill (grid0.coords t) d (iblk m c 0 t) := by
  unfold Dat.before; rw [if_pos (fetch0_0 t)]; rfl

/-- The two resident blocks hold their arrays at every point. -/
theorem before_1 (c : Dev nD) (t : Fin cfg0.N) (d) : (dats m out3 0 c).before 1 t d = iblk m c 1 t :=
  before0_1_of m (dats m out3 0 c) rfl (fun _ => rfl) t d
theorem before_2 (c : Dev nD) (t : Fin cfg0.N) (d) : (dats m out3 0 c).before 2 t d = iblk m c 2 t :=
  before0_2_of m (dats m out3 0 c) rfl (fun _ => rfl) t d

/-- The output block is written back at every point, so the body finds it at anything. -/
theorem before_3 (c : Dev nD) (t : Fin cfg0.N) (d) : (dats m out3 0 c).before 3 t d = d := by
  unfold Dat.before
  rw [if_neg (by rw [fetch0_3 t]; exact Bool.false_ne_true)]
  by_cases h : t.val = 0
  · rw [if_pos h]
  · rw [if_neg h]; exact if_pos (flush0_3 _)

theorem Phi_castSucc (c : Dev nD) (t : Fin cfg0.N) : (dats m out3 0 c).Φ t.castSucc = PhiS m c t.val := by
  dsimp only [dats]; simp only [Fin.coe_castSucc]

/-! ## The body at a point -/

set_option maxHeartbeats 4000000 in
/-- The body at point `t`, handed the row block filled out with `d0` past the array's end, the two resident blocks,
    the output block at anything and the invariant: it hands the three inputs back, the output block at the row block
    times the scratch's product, and the invariant of the next position. -/
theorem sound_body (c : Dev nD) (t : Fin cfg0.N) (d0 : S560x10000.Idx → Elt F .f32) (K : PUnit → sProp 𝕄) :
    iprop((dats m out3 0 c).Φ t.castSucc
        ∗ owns (c : Thread nD τ) (ms0 t) fullShare (win0_0.fill (grid0.coords t) d0 (iblk m c 0 t))
        ∗ owns (c : Thread nD τ) (ms1 t) fullShare (iblk m c 1 t)
        ∗ owns (c : Thread nD τ) (ms2 t) fullShare (iblk m c 2 t)
        ∗ (∃ d, owns (c : Thread nD τ) (ms3 t) fullShare d)
        ∗ (iprop((dats m out3 0 c).Φ t.succ
            ∗ owns (c : Thread nD τ) (ms0 t) fullShare (win0_0.fill (grid0.coords t) d0 (iblk m c 0 t))
            ∗ owns (c : Thread nD τ) (ms1 t) fullShare (iblk m c 1 t)
            ∗ owns (c : Thread nD τ) (ms2 t) fullShare (iblk m c 2 t)
            ∗ owns (c : Thread nD τ) (ms3 t) fullShare
                (k0_pay2 (win0_0.fill (grid0.coords t) d0 (iblk m c 0 t)) (supp m c))) -∗ K ⟨⟩))
      ⊢ wp frame (wpE (defs₀ (F := F)) Variants.none c none) Set.univ (bodyAt0 t) K := by
  rw [Phi_castSucc, show (dats m out3 0 c).Φ t.succ = PhiS m c (t.val + 1) from rfl]
  unfold bodyAt0
  by_cases hz : t.val = 0
  · obtain ⟨n, hn⟩ := t
    obtain rfl : n = 0 := hz
    rw [show PhiS m c (⟨0, hn⟩ : Fin cfg0.N).val = Pipeline.ΦA spec0 c from rfl, PhiA_eq,
      show PhiS m c ((⟨0, hn⟩ : Fin cfg0.N).val + 1)
        = iprop(iprop(owns (c : Thread nD τ) scM fullShare (k0_pay1 (iblk m c 1 ⟨0, hn⟩) (iblk m c 2 ⟨0, hn⟩))) ∗ (∃ r, prngReg c r)) from rfl,
      show supp m c = k0_pay1 (iblk m c 1 ⟨0, hn⟩) (iblk m c 2 ⟨0, hn⟩) from rfl]
    iintro ⟨⟨HS, Hg⟩, H0, H1, H2, H3, Hk⟩
    iapply (runA c (grid0.coords ⟨0, hn⟩) _ _ _ _ _ _ _ _ _ _ ((hcond0 ⟨0, hn⟩).mpr rfl) _ _ _ Set.univ _)
    isplitl [H0]; · iexact H0
    isplitl [H1]; · iexact H1
    isplitl [H2]; · iexact H2
    isplitl [H3]; · iexact H3
    isplitl [HS]; · iexact HS
    iintro ⟨H0, H1, H2, H3, HS⟩
    iapply Hk
    isplitl [HS Hg]
    · isplitl [HS]; · iexact HS
      iexact Hg
    isplitl [H0]; · iexact H0
    isplitl [H1]; · iexact H1
    isplitl [H2]; · iexact H2
    iexact H3
  · obtain ⟨k, hk⟩ : ∃ k, t.val = k + 1 := Nat.exists_eq_succ_of_ne_zero hz
    rw [show PhiS m c t.val = iprop(iprop(owns (c : Thread nD τ) scM fullShare (supp m c)) ∗ (∃ r, prngReg c r)) from by rw [hk]; rfl,
      show PhiS m c (t.val + 1) = iprop(iprop(owns (c : Thread nD τ) scM fullShare (supp m c)) ∗ (∃ r, prngReg c r)) from rfl]
    iintro ⟨⟨HS, Hg⟩, H0, H1, H2, H3, Hk⟩
    iapply (runB c (grid0.coords t) _ _ _ _ _ _ _ _ _ _ (fun h => hz ((hcond0 t).mp h)) _ _ Set.univ _)
    isplitl [H0]; · iexact H0
    isplitl [H3]; · iexact H3
    isplitl [HS]; · iexact HS
    iintro ⟨H0, H3, HS⟩
    iapply Hk
    isplitl [HS Hg]
    · isplitl [HS]; · iexact HS
      iexact Hg
    isplitl [H0]; · iexact H0
    isplitl [H1]; · iexact H1
    isplitl [H2]; · iexact H2
    iexact H3

end Cert.KernelIdeal.Body

end
-- ==== Proof.IdealFrame.lean ====
/-
  The frame of the program: it runs to the end, faults nowhere, and leaves its three argument arrays as it found them.

  Nothing here depends on what the matrix unit computes: the body's two cases are run on whatever the staging buffers
  hold, the output block is handed back at contents nothing names, and the scratch is carried from point to point at
  the contents the first point left in it.
-/
import proofs.«103150_g2800318677549_cont_9to1_1348_13_alg».proof.Proof.IdealData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (out3 : Dev nD → Fin cfg0.N → S560x128.Idx → Elt F .f32)

/-! ## The body obligation, nothing said of the output block -/

/-- The output window: the frame says nothing of what the body leaves in it. -/
def forgets : Fin 4 → Bool := fun w => w.val == 3

/-- At every point the body takes the three input blocks as the fetches left them and hands them back so; the
    output block goes in and comes out at contents nothing names. -/
theorem body_obligation_fgt (c : Dev nD) :
    BodyObligationLoose (dats (F := F) m out3 0 c) (defs₀ (F := F)) Variants.none () Set.univ forgets := fun t => by
  rw [bigSep_W0, bigSep_W0]
  have e0 : ((0 : Fin 4).val == 3) = false := rfl
  have e1 : ((1 : Fin 4).val == 3) = false := rfl
  have e2 : ((2 : Fin 4).val == 3) = false := rfl
  have e3 : ((3 : Fin 4).val == 3) = true := rfl
  simp only [forgets, e0, e1, e2, e3]
  rw [show (dats m out3 0 c).owesAt () t.succ = (dats m out3 0 c).owesAt () t.castSucc from rfl]
  iintro ⟨HΦ, Ho, ⟨%d0, H0⟩, ⟨%d1, H1⟩, ⟨%d2, H2⟩, H3⟩
  rw [before_0 m out3 c t d0, before_1 m out3 c t d1, before_2 m out3 c t d2]
  iapply (sound_body m out3 c t d0 _)
  isplitl [HΦ]; · iexact HΦ
  isplitl [H0]; · iexact H0
  isplitl [H1]; · iexact H1
  isplitl [H2]; · iexact H2
  isplitl [H3]; · iexact H3
  iintro ⟨HΦ, H0, H1, H2, H3⟩
  isplitl [HΦ]; · iexact HΦ
  isplitl [Ho]; · iexact Ho
  have hx : win0_0.cut (grid0.coords t) ((dats m out3 0 c).after 0 t) = iblk m c 0 t := win0_0.cut_fill _ _ _
  isplitl [H0]
  · iexists d0
    change _ ⊢ owns (c : Thread nD τ) (ms0 t) fullShare (win0_0.fill (grid0.coords t) d0 (win0_0.cut (grid0.coords t) ((dats m out3 0 c).after 0 t)))
    rw [hx]; try iexact H0
  isplitl [H1]; · iexact H1
  isplitl [H2]; · iexact H2
  iexists _; iexact H3

/-! ## The invariant's two ends -/

/-- What the launch hands the region is the invariant before the first point. -/
theorem hin (c : Dev nD) : Pipeline.ΦA spec0 c ⊢ (dats m out3 0 c).Φ 0 := by
  rw [show (dats m out3 0 c).Φ 0 = Pipeline.ΦA spec0 c from rfl]

/-- After the last point the scratch's contents are forgotten. -/
theorem hout (c : Dev nD) : (dats m out3 0 c).Φ (Fin.last cfg0.N) ⊢ Pipeline.ΦA spec0 c := by
  rw [show (dats m out3 0 c).Φ (Fin.last cfg0.N)
      = iprop(iprop(owns (c : Thread nD τ) scM fullShare (supp m c)) ∗ (∃ r, prngReg c r)) from rfl, PhiA_eq]
  iintro ⟨HS, Hg⟩
  isplitl [HS]
  · iexists _; iexact HS
  iexact Hg

/-! ## The run and the frame -/

set_option backward.isDefEq.respectTransparency.types false in
/-- Every weakly fair execution of @main terminates without a fault; the three argument arrays hold at the end what the
    region found in them. -/
theorem run_frame : θ_run defs (onTc (τ := τ) (main (F := F))) (s₀ m ρ)
    (Pipeline.RDat.FramePost (cfgs 0) (fun c => (dats m out3 0 c).toRForget forgets) (V m)) :=
  Pipeline.RDat.θ_run_frame_track cfgs (0 : Fin 1) launch0 defs₀ Variants.none
    (fun c => (dats m out3 0 c).toRForget forgets) m ρ main
    (hbody := fun c => (body_obligation_fgt m out3 c).toRForget)
    (hshare := fun c => ((dats m out3 0 c).toRForget forgets).share_full fun _ => rfl)
    (howed := fun _ _ => rfl) (V := V m) (hmain := hmain m Variants.none) (hA := fun c w => A_eq m out3 c w)
    (hin := hin m out3) (hout := hout m out3)

/-- The frame: the program runs to the end and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m (fun _ _ _ => Scalar.ofBits .f32 0#32) 0 c).toRForget forgets).ArrAt_in 1 rfl _) _) ((h c).1 1)).trans (V_main_arg0 m c),
     (Eq.mp (congrFun (((dats m (fun _ _ _ => Scalar.ofBits .f32 0#32) 0 c).toRForget forgets).ArrAt_in 0 rfl _) _) ((h c).1 0)).trans (V_main_arg1 m c),
     (Eq.mp (congrFun (((dats m (fun _ _ _ => Scalar.ofBits .f32 0#32) 0 c).toRForget forgets).ArrAt_in 2 rfl _) _) ((h c).1 2)).trans (V_main_arg2 m c)⟩)
    (run_frame m ρ (fun _ _ _ => Scalar.ofBits .f32 0#32))

end Cert.KernelIdeal.Body

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.Spec.lean ====
/-
  The specification: a graph-convolution layer without bias, out = A · (X · W).

  Both programs form the inner product X · W first and multiply the square matrix A by it, so they are one function
  entry by entry: entry (r, j) is the sum over k of A(r, k) times the sum over d of X(k, d) · W(d, j). Nothing is
  reassociated, and no entry is asked to be finite.
-/
import proofs.«103150_g2800318677549_cont_9to1_1348_13_alg».proof.Proof.LibDense

noncomputable section

open scoped BigOperators

namespace Cert.Gcn

open Idealize.ShloMosaic Idealize.ShloMosaic.ValueIdx Cert.Dense

/-- The layer: the square matrix times the product of the features and the weights. -/
def G {n f g : ℕ} (X : Mat n f) (A : Mat n n) (W : Mat f g) : Mat n g := mm A (mm X W)

/-- A row of a product depends on that row of the left factor only: if row `p` of `blk` is row `r` of `A`, entry
    (p, q) of `blk · S` is entry (r, q) of `A · S`. -/
theorem mm_row {M M' K N : ℕ} (blk : Mat M K) (A : Mat M' K) (S : Mat K N) (p : Fin M) (r : Fin M') (q : Fin N)
    (h : ∀ k : Fin K, blk (ix2 p k) = A (ix2 r k)) : mm blk S (ix2 p q) = mm A S (ix2 r q) := by
  unfold mm
  refine Finset.sum_congr rfl fun k _ => ?_
  rw [show (ix2 p q : (⟨2, ![M, N]⟩ : Shape).Idx) 0 = p from rfl, show (ix2 r q : (⟨2, ![M', N]⟩ : Shape).Idx) 0 = r from rfl, h k]
  rfl

end Cert.Gcn

end
-- ==== Proof.IdealValue.lean ====
/-
  What the idealized kernel computes: its result array ends holding A · (X · W), entry by entry.

  The scratch holds X · W from the first point on. At point t the row block holds rows 560·t … of A on the rows that lie
  inside the array, and words nothing names below them (the last block overhangs the array by eighty rows); entry (p, q)
  of the block product reads row p of the block only, so on the rows inside the array the output block is rows
  560·t … of A · (X · W), which is what the write-back, cut at the array's end, writes. The eighteen blocks cover the
  ten thousand rows.
-/
import proofs.«103150_g2800318677549_cont_9to1_1348_13_alg».proof.Proof.IdealFrame
import proofs.«103150_g2800318677549_cont_9to1_1348_13_alg».proof.Proof.Spec

set_option maxRecDepth 16384

noncomputable section

namespace Cert.KernelIdeal.Exact

open Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.Dense Cert.Gcn Idealize.ShloMosaic.ValueIdx

variable (m : (ℓ : Loc nD τ sig) → Buf (Elt Ideal) ℓ) (ρ : Dev nD → PrngReg)

/-! ## The two block products are matrix products -/

theorem pay1_eq (x : FVec Ideal S10000x128 .f32) (w : FVec Ideal S128x128 .f32) :
    k0_pay1 (F := Ideal) x w = mm (M := 10000) (K := 128) (N := 128) x w := by
  unfold k0_pay1
  dsimp only
  rw [shapeCast_self]
  exact matmul_plain_zero (M := 10000) (K := 128) (N := 128) none x w

theorem pay2_eq (a : FVec Ideal S560x10000 .f32) (s : FVec Ideal S10000x128 .f32) :
    k0_pay2 (F := Ideal) a s = mm (M := 560) (K := 10000) (N := 128) a s := by
  unfold k0_pay2
  dsimp only
  exact matmul_plain_zero (M := 560) (K := 10000) (N := 128) none a s

/-! ## The index maps over the grid -/

/-- The row block and the output block at point `t` start at row 560·t and span the columns; the last one is cut at
    the array's end. -/
theorem win0_facts : ∀ t : Fin cfg0.N, win0_0.index t (0 : Fin 2) = t.val ∧ win0_0.index t (1 : Fin 2) = 0
    ∧ win0_0.xsize (grid0.coords t) (0 : Fin 2) = min 560 (10000 - 560 * t.val)
    ∧ win0_0.xsize (grid0.coords t) (1 : Fin 2) = 10000 :=
  (by decide +kernel : ∀ t : Fin grid0.N, _)

theorem win3_facts : ∀ t : Fin cfg0.N, win0_3.index t (0 : Fin 2) = t.val ∧ win0_3.index t (1 : Fin 2) = 0
    ∧ win0_3.xsize (grid0.coords t) (0 : Fin 2) = min 560 (10000 - 560 * t.val)
    ∧ win0_3.xsize (grid0.coords t) (1 : Fin 2) = 128 :=
  (by decide +kernel : ∀ t : Fin grid0.N, _)

/-- The two resident blocks are their whole arrays at every point. -/
theorem win12_facts : ∀ t : Fin cfg0.N, win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The blocks read off the arrays -/

theorem iblk1_eq (c : Dev nD) (t : Fin cfg0.N) : (iblk m c 1 t : S10000x128.Idx → EReal) = V m c main_arg0 := by
  obtain ⟨e0, e1, -, -⟩ := win12_facts t
  funext j
  show V m c main_arg0 (((cfg0.win 1).blk t).view.emb j) = V m c main_arg0 j
  congr 1
  funext a; apply Fin.ext
  match a with
  | ⟨0, _⟩ => show win0_1.index t (0 : Fin 2) * 10000 + 1 * (j 0).val = (j 0).val; rw [e0]; omega
  | ⟨1, _⟩ => show win0_1.index t (1 : Fin 2) * 128 + 1 * (j 1).val = (j 1).val; rw [e1]; omega

theorem iblk2_eq (c : Dev nD) (t : Fin cfg0.N) : (iblk m c 2 t : S128x128.Idx → EReal) = V m c main_arg2 := by
  obtain ⟨-, -, e0, e1⟩ := win12_facts t
  funext j
  show V m c main_arg2 (((cfg0.win 2).blk t).view.emb j) = V m c main_arg2 j
  congr 1
  funext a; apply Fin.ext
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

/-- The scratch holds X · W. -/
theorem supp_eq (c : Dev nD) : supp m c = mm (M := 10000) (K := 128) (N := 128) (V m c main_arg0) (V m c main_arg2) := by
  unfold supp
  rw [pay1_eq, iblk1_eq, iblk2_eq]

/-- Row `p` of the row block at point `t`, when it lies inside the array, is row 560·t + p of A. -/
theorem fill0_apply (c : Dev nD) (t : Fin cfg0.N) (d0 : S560x10000.Idx → EReal) (p : Fin 560) (k : Fin 10000)
    (hp : 560 * t.val + p.val < 10000) :
    win0_0.fill (grid0.coords t) d0 (iblk m c 0 t) (ix2 p k) = V m c main_arg1 (ix2 ⟨560 * t.val + p.val, hp⟩ k) := by
  obtain ⟨e0, e1, s0, s1⟩ := win0_facts t
  have hm : win0_0.moved (grid0.coords t) (ix2 p k) = true := (win0_0.moved_iff _ _).mpr fun a => by
    match a with
    | ⟨0, _⟩ => show p.val < win0_0.xsize (grid0.coords t) (0 : Fin 2); rw [s0]; have := p.isLt; omega
    | ⟨1, _⟩ => show k.val < win0_0.xsize (grid0.coords t) (1 : Fin 2); rw [s1]; exact k.isLt
  unfold Window.fill
  rw [dif_pos hm]
  show V m c main_arg1 (((cfg0.win 0).blk t).view.emb _) = _
  congr 1
  funext a; apply Fin.ext
  match a with
  | ⟨0, _⟩ => show win0_0.index t (0 : Fin 2) * 560 + 1 * p.val = 560 * t.val + p.val; rw [e0]; omega
  | ⟨1, _⟩ => show win0_0.index t (1 : Fin 2) * 10000 + 1 * k.val = k.val; rw [e1]; omega

/-- The layer of the arrays as the region finds them. -/
abbrev Gc (c : Dev nD) : S10000x128.Idx → EReal :=
  G (n := 10000) (f := 128) (g := 128) (V m c main_arg0) (V m c main_arg1) (V m c main_arg2)

/-- Entry (p, q) of the body's output block at point `t`, for a row inside the array, is entry (560·t + p, q) of the
    layer, whatever the row block holds past the array's end. -/
theorem pay2_at (c : Dev nD) (t : Fin cfg0.N) (d0 : S560x10000.Idx → EReal) (p : Fin 560) (q : Fin 128)
    (hp : 560 * t.val + p.val < 10000) :
    k0_pay2 (F := Ideal) (win0_0.fill (grid0.coords t) d0 (iblk m c 0 t)) (supp m c) (ix2 p q)
      = Gc m c (ix2 ⟨560 * t.val + p.val, hp⟩ q) := by
  rw [pay2_eq, supp_eq]
  exact mm_row _ (V m c main_arg1) _ p _ q (fun k => fill0_apply m c t d0 p k hp)

/-! ## The proof data at the ideal instance -/

/-- After the body the output block holds block `t` of the layer on the rows inside the array. -/
def out3 (c : Dev nD) (t : Fin cfg0.N) : S560x128.Idx → EReal :=
  win0_3.fill (grid0.coords t) (fun _ => 0) ((win0_3.blk t).view.read (Elt Ideal) (Gc m c))

/-- What the write-back at point `t` takes of the body's output block is block `t` of the layer. -/
theorem cut_pay2 (c : Dev nD) (t : Fin cfg0.N) (d0 : S560x10000.Idx → EReal) :
    win0_3.cut (grid0.coords t) (k0_pay2 (F := Ideal) (win0_0.fill (grid0.coords t) d0 (iblk m c 0 t)) (supp m c))
      = (win0_3.blk t).view.read (Elt Ideal) (Gc m c) := by
  obtain ⟨e0, e1, s0, s1⟩ := win3_facts t
  funext j
  have hj0 : (j 0).val < win0_3.xsize (grid0.coords t) (0 : Fin 2) := (j 0).isLt
  have hj1 : (j 1).val < win0_3.xsize (grid0.coords t) (1 : Fin 2) := (j 1).isLt
  rw [s0] at hj0; rw [s1] at hj1
  have hp : 560 * t.val + (j 0).val < 10000 := by omega
  show k0_pay2 (F := Ideal) _ _ (win0_3.xinj (grid0.coords t) j) = Gc m c (((cfg0.win 3).blk t).view.emb j)
  rw [show win0_3.xinj (grid0.coords t) j = ix2 (⟨(j 0).val, by omega⟩ : Fin 560) (⟨(j 1).val, hj1⟩ : Fin 128) from
      funext fun a => Fin.ext (by match a with | ⟨0, _⟩ => rfl | ⟨1, _⟩ => rfl),
    show ((cfg0.win 3).blk t).view.emb j = ix2 (⟨560 * t.val + (j 0).val, hp⟩ : Fin 10000) (⟨(j 1).val, hj1⟩ : Fin 128) from
      funext fun a => Fin.ext (by
        match a with
        | ⟨0, _⟩ => show win0_3.index t (0 : Fin 2) * 560 + 1 * (j 0).val = 560 * t.val + (j 0).val; rw [e0]; omega
        | ⟨1, _⟩ => show win0_3.index t (1 : Fin 2) * 128 + 1 * (j 1).val = (j 1).val; rw [e1]; omega)]
  exact pay2_at m c t d0 _ _ hp

/-- The library's body obligation with every window named. -/
theorem body_obligation (c : Dev nD) :
    BodyObligationLoose (dats (F := Ideal) m (out3 m) 0 c) (defs₀ (F := Ideal)) Variants.none () Set.univ := fun t => by
  rw [bigSep_W0, bigSep_W0]
  simp only
  rw [show (dats m (out3 m) 0 c).owesAt () t.succ = (dats m (out3 m) 0 c).owesAt () t.castSucc from rfl]
  iintro ⟨HΦ, Ho, ⟨%d0, H0⟩, ⟨%d1, H1⟩, ⟨%d2, H2⟩, ⟨%d3, H3⟩⟩
  rw [before_0 m (out3 m) c t d0, before_1 m (out3 m) c t d1, before_2 m (out3 m) c t d2, before_3 m (out3 m) c t d3]
  iapply (sound_body m (out3 m) c t d0 _)
  isplitl [HΦ]; · iexact HΦ
  isplitl [H0]; · iexact H0
  isplitl [H1]; · iexact H1
  isplitl [H2]; · iexact H2
  isplitl [H3]; · iexists _; iexact H3
  iintro ⟨HΦ, H0, H1, H2, H3⟩
  isplitl [HΦ]; · iexact HΦ
  isplitl [Ho]; · iexact Ho
  have hx : win0_0.cut (grid0.coords t) ((dats m (out3 m) 0 c).after 0 t) = iblk m c 0 t := win0_0.cut_fill _ _ _
  have h3 : win0_3.fill (grid0.coords t) (k0_pay2 (F := Ideal) (win0_0.fill (grid0.coords t) d0 (iblk m c 0 t)) (supp m c))
      (win0_3.cut (grid0.coords t) ((dats m (out3 m) 0 c).after 3 t))
      = k0_pay2 (F := Ideal) (win0_0.fill (grid0.coords t) d0 (iblk m c 0 t)) (supp m c) := by
    rw [show win0_3.cut (grid0.coords t) ((dats m (out3 m) 0 c).after 3 t)
        = (win0_3.blk t).view.read (Elt Ideal) (Gc m c) from win0_3.cut_fill _ _ _, ← cut_pay2 m c t d0]
    exact win0_3.fill_cut _ _
  isplitl [H0]
  · iexists d0
    change _ ⊢ owns (c : Thread nD τ) (ms0 t) fullShare (win0_0.fill (grid0.coords t) d0 (win0_0.cut (grid0.coords t) ((dats m (out3 m) 0 c).after 0 t)))
    rw [hx]; try iexact H0
  isplitl [H1]; · iexact H1
  isplitl [H2]; · iexact H2
  iexists (k0_pay2 (F := Ideal) (win0_0.fill (grid0.coords t) d0 (iblk m c 0 t)) (supp m c))
  change _ ⊢ owns (c : Thread nD τ) (ms3 t) fullShare (win0_3.fill (grid0.coords t) _ (win0_3.cut (grid0.coords t) ((dats m (out3 m) 0 c).after 3 t)))
  rw [h3]; try iexact H3

/-! ## The run -/

set_option backward.isDefEq.respectTransparency.types false in
theorem run_main : θ_run defs (onTc (τ := τ) (main (F := Ideal))) (s₀ m ρ)
    (Pipeline.FramePost cfgs (dats m (out3 m)) 0 (V m)) :=
  Pipeline.θ_run_frame_track cfgs (dats m (out3 m)) (0 : Fin 1) launch0 defs₀ Variants.none m ρ main
    (hbody := fun c => body_obligation m c) (hshare := fun c => (dats m (out3 m) 0 c).share_full fun _ => rfl)
    (howed := fun _ _ => rfl) (V := V m) (hmain := hmain m Variants.none) (hA := fun c w => A_eq m (out3 m) c w)
    (hin := hin m (out3 m)) (hout := hout m (out3 m))

/-! ## From the blocks to the array -/

/-- What point `t` writes back is block `t` of the layer. -/
theorem flushed_eq (c : Dev nD) (t : Fin cfg0.N) :
    (dats m (out3 m) 0 c).flushed 3 t = ((cfg0.win 3).blk t).view.read (Elt Ideal) (Gc m c) :=
  win0_3.cut_fill _ _ _

/-- An index of the result array is in point `t`'s block iff its row is among the block's rows inside the array. -/
theorem mem_blk (t : Fin cfg0.N) (i : S10000x128.Idx) :
    i ∈ ((cfg0.win 3).blk t).view.set ↔ ∀ a : Fin 2, win0_3.index t a * S560x128.size a ≤ (i a).val
      ∧ (i a).val < win0_3.index t a * S560x128.size a + win0_3.xsize (grid0.coords t) a := by
  show i ∈ ((View.whole main_v0).slice (win0_3.rect t)).set ↔ _
  rw [View.set_slice_whole, Rect.mem_set_unit]
  exact Iff.rfl

/-- Row r lies in block r / 560. -/
theorem cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 18 := N_0
  refine ⟨⟨(i 0).val / 560, by rw [hN]; omega⟩, flush0_3 _, ?_⟩
  rw [mem_blk]
  obtain ⟨e0, e1, s0, s1⟩ := win3_facts ⟨(i 0).val / 560, by rw [hN]; omega⟩
  intro a
  match a with
  | ⟨0, _⟩ =>
    show win0_3.index _ (0 : Fin 2) * 560 ≤ (i 0).val ∧ (i 0).val < win0_3.index _ (0 : Fin 2) * 560 + win0_3.xsize _ (0 : Fin 2)
    rw [e0, s0]; dsimp only; omega
  | ⟨1, _⟩ =>
    show win0_3.index _ (1 : Fin 2) * 128 ≤ (i 1).val ∧ (i 1).val < win0_3.index _ (1 : Fin 2) * 128 + win0_3.xsize _ (1 : Fin 2)
    rw [e1, s1]; omega

/-- The result array after the run is the layer of the argument arrays. -/
theorem final3 (c : Dev nD) : (dats m (out3 m) 0 c).arrAt 3 cfg0.N = Gc m c :=
  (dats m (out3 m) 0 c).arrAt_eq_of_cover 3 (Gc m c) (fun t _ => flushed_eq m c t) cover

/-- The idealized kernel runs to the end with its result array at the layer of its arguments, which end unchanged. -/
theorem run : θ_run defs (onTc (τ := τ) (main (F := Ideal))) ⟨m, fun _ => 0, ρ⟩ (fun r => ∀ c : Dev nD,
      r.2.mem ((c.tc : Thread nD τ).loc main_v0)
        = G (n := 10000) (f := 128) (g := 128) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final3 m c),
     ((h c).1 1).trans (((dats m (out3 m) 0 c).arrAt_in 1 rfl _).trans (V_main_arg0 m c)),
     ((h c).1 0).trans (((dats m (out3 m) 0 c).arrAt_in 0 rfl _).trans (V_main_arg1 m c)),
     ((h c).1 2).trans (((dats m (out3 m) 0 c).arrAt_in 2 rfl _).trans (V_main_arg2 m c))⟩)
    (run_main m ρ)

end Cert.KernelIdeal.Exact

end
-- ==== Proof.RefValue.lean ====
/-
  The reference computes the specification: its two general dot products, each with one contracted axis, are the two
  matrix products of A · (X · W).
-/
import proofs.«103150_g2800318677549_cont_9to1_1348_13_alg».proof.Proof.Gen.ReferenceIdeal.Run
import proofs.«103150_g2800318677549_cont_9to1_1348_13_alg».proof.Proof.Spec

noncomputable section

namespace Cert.ReferenceIdeal.RefValue

open Cert.ReferenceIdeal Idealize.ShloMosaic Cert.Dense Cert.Gcn

/-- The reference's result term is the layer of its three arguments. -/
theorem result_eq (x0 : FVec Ideal S10000x128 .f32) (x1 : FVec Ideal S10000x10000 .f32) (x2 : FVec Ideal S128x128 .f32) :
    Host.dotGeneral (F := Ideal) dot_S10000x10000_S10000x128_S10000x128_1_0_0_1_n_n none x1
        (Host.dotGeneral (F := Ideal) dot_S10000x128_S128x128_S10000x128_1_0_0_1_n_n none x0 x2)
      = G (n := 10000) (f := 128) (g := 128) x0 x1 x2 := by
  unfold G
  rw [show dot_S10000x128_S128x128_S10000x128_1_0_0_1_n_n = DotDims.plain 10000 128 128 from rfl,
    show dot_S10000x10000_S10000x128_S10000x128_1_0_0_1_n_n = DotDims.plain 10000 10000 128 from rfl,
    dotGeneral_plain, dotGeneral_plain]

end Cert.ReferenceIdeal.RefValue

end
-- ==== Proof.lean ====
/-
  A graph-convolution layer without bias, out = A · (X · W), over X : f32[10000, 128], A : f32[10000, 10000],
  W : f32[128, 128].

  The kernel walks A in eighteen blocks of 560 rows. At the first block it forms X · W once and keeps it in a scratch
  buffer that outlives the grid points; at every block it multiplies the block of A by that product and writes the
  block of the result back. The reference forms X · W and then A · (X · W) by two general dot products. On the
  extended reals both are, entry by entry, the sum over k of A(r, k) times the sum over d of X(k, d) · W(d, j): the
  same grouping on both sides, so no law of arithmetic beyond the definition of a matrix product is used and no entry
  is asked to be finite.

  Eighteen blocks of 560 rows are 10080 rows: the last block overhangs the array by eighty. What the staging buffers
  hold on those rows is named by nothing; a row of a matrix product reads that row of the left factor only, so the rows
  of the result inside the array do not depend on it, and the write-back is cut at the array's end.

  The three frames: each program runs to the end without a fault and leaves its arguments unchanged. For the two
  kernel programs this is the pipeline's launch over the body run in its two cases (first block, later blocks) with the
  scratch carried between points; for the reference it is its run with the result dropped. The idealization rewrote
  nothing, so the kernel's idealization is its own text read on the extended reals.
-/
import proofs.«103150_g2800318677549_cont_9to1_1348_13_alg».proof.Defs
import proofs.«103150_g2800318677549_cont_9to1_1348_13_alg».proof.Proof.Gen.Kernel
import proofs.«103150_g2800318677549_cont_9to1_1348_13_alg».proof.Proof.Gen.KernelIdeal
import proofs.«103150_g2800318677549_cont_9to1_1348_13_alg».proof.Proof.Gen.ReferenceIdeal
import proofs.«103150_g2800318677549_cont_9to1_1348_13_alg».proof.Proof.Gen.ReferenceIdeal.Run
import proofs.«103150_g2800318677549_cont_9to1_1348_13_alg».proof.Proof.Gen.Pre_finite_inputs
import proofs.«103150_g2800318677549_cont_9to1_1348_13_alg».proof.Proof.BitsFrame
import proofs.«103150_g2800318677549_cont_9to1_1348_13_alg».proof.Proof.IdealValue
import proofs.«103150_g2800318677549_cont_9to1_1348_13_alg».proof.Proof.RefValue
import Idealize.ShloMosaic.Adequacy
import Idealize.ShloMosaic.Init

noncomputable section

namespace Cert.Proof

open Idealize.ShloMosaic Idealize.SL.Sem

/-- The kernel as printed runs to the end and leaves its arguments unchanged. -/
theorem frame_kernel : Cert.frame_Kernel := fun m ρ _ => Cert.Kernel.Body.frame (F := Bits) m ρ

/-- So does its idealization. -/
theorem frame_kernelIdeal : Cert.frame_KernelIdeal := fun m ρ _ => Cert.KernelIdeal.Body.frame (F := Ideal) m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the layer A · (X · W) of those arguments. -/
theorem algebraic : Cert.algebraic_KernelIdeal_ReferenceIdeal := by
  intro m ρ m' ρ' _ hagree
  refine ⟨_, Cert.KernelIdeal.Exact.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
